-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S2x16x2048x2048 : Shape := ⟨4, ![2, 16, 2048, 2048]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_

variable [Facts]

def fn {F : FTy → Type} [FloatOps F] (main_arg0 : FVec F S2x16x2048x128 .f32) (main_arg1 : FVec F S2x16x2048x128 .f32) (main_arg2 : FVec F S2x16x2048x2048 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x2048 .f32 := Host.absf main_arg2
  let main_cst_2 : FVec F S_ .f32 := constant S_ .f32 0x7F800000#32
  let main_v10 : FVec F S2x16x2048x2048 .f32 := broadcastInDim S2x16x2048x2048 ![] bcast_S_S2x16x2048x2048 main_cst_2
  let main_v11 : IVec S2x16x2048x2048 1 := cmpf .olt main_v9 main_v10
  let main_c_3 : IVec S_ 1 := constantI S_ 1 1#1
  let main_v12 : IVec S_ 1 := (fun x v => Host.reduce IntOp.andi x v reducesTo_S2x16x2048x2048_S_d0_1_2_3 h_S_) main_v11 main_c_3
  let main_v13 : IVec S_ 1 := andi main_v8 main_v12
  main_v13
-- ==== Kernel.lean ====
abbrev S2x16x2048x128 : Shape := ⟨4, ![2, 16, 2048, 128]⟩
abbrev S2x16x2048x2048 : Shape := ⟨4, ![2, 16, 2048, 2048]⟩
abbrev S1x1x512x128 : Shape := ⟨4, ![1, 1, 512, 128]⟩
abbrev S1x1x2048x128 : Shape := ⟨4, ![1, 1, 2048, 128]⟩
abbrev S1x1x512x2048 : Shape := ⟨4, ![1, 1, 512, 2048]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x2048, .f32⟩
  | .hbm, ⟨3, _⟩ => ⟨S2x16x2048x128, .f32⟩
  | .local _ .vmem, ⟨0, _⟩ => ⟨S1x1x512x128, .f32⟩
  | .local _ .vmem, ⟨1, _⟩ => ⟨S1x1x512x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x512x2048, .f32⟩
  | .local _ .vmem, ⟨5, _⟩ => ⟨S1x1x512x2048, .f32⟩
  | .local _ .vmem, ⟨6, _⟩ => ⟨S1x1x512x128, .f32⟩
  | .local _ .vmem, ⟨7, _⟩ => ⟨S1x1x512x128, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x1x512x128_S1x1x512x128_0_0_0_0 : ∀ a, (![0, 0, 0, 0] : Fin 4 → Nat) a + S1x1x512x128.size a ≤ S1x1x512x128.size a
  h_S1x1x512x128 : 0 < S1x1x512x128.numel
  shapeCasts_S1x1x512x128_S512x128 : S1x1x512x128.ShapeCasts S512x128
  bitsLt_bf16_f32 : FTy.bits .bf16 < FTy.bits .f32
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  broadcasts_S512x1_S512x128 : S512x1.Broadcasts S512x128
  shapeCasts_S512x128_S1x1x512x128 : S512x128.ShapeCasts S1x1x512x128
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x128.size a ≤ S2x16x2048x128.size a
  hwx0_0 : ∀ i : grid0.Coords, EltTy.bits .f32 = 32 ∨ (Rect.block (s := S2x16x2048x128) S1x1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x128.size a ≤ S2x16x2048x128.size a
  hwx0_1 : ∀ i : grid0.Coords, EltTy.bits .f32 = 32 ∨ (Rect.block (s := S2x16x2048x128) S1x1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x2048.size a ≤ S2x16x2048x2048.size a
  hwx0_2 : ∀ i : grid0.Coords, EltTy.bits .f32 = 32 ∨ (Rect.block (s := S2x16x2048x2048) S1x1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x128.size a ≤ S2x16x2048x128.size a
  hwx0_3 : ∀ i : grid0.Coords, EltTy.bits .f32 = 32 ∨ (Rect.block (s := S2x16x2048x128) S1x1x512x128.size (cc0_transform_3 i) (hinb0_3 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x2048, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x2048, .f32⟩
  | .hbm, ⟨22, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.AttnAlgebra.lean ====
/- Row-wise algebra of masked softmax attention on the extended reals.
   For one query row: scores s k = (∑ₑ q e · K k e) · c, their running maximum M, weights w k = exp (s k − M), and the
   row sum L = ∑ₖ w k.  One program divides by L after the weighted sum over the value rows, the other divides each
   weight by L first.  When the query and key rows are real, L is a positive real, division by it is multiplication
   by the non-negative real 1 / L, and a non-negative real distributes over ANY sum of extended reals; the rest is
   commutativity and associativity of the product. The mask row may hold any extended reals. -/
import Idealize.ShloMosaic.PureOps.Ideal
import Idealize.ShloMosaic.PureOps.Ideal.Laws

noncomputable section

open scoped BigOperators

namespace Cert.Attn

open Idealize.ShloMosaic

/-- The scale both programs multiply the scores by, as the extended real its word denotes. -/
abbrev scaleW : EReal := Ideal.ofBits .f32 0x3E55DCAE#32
/-- The value both maxima start from (the word of −∞). -/
abbrev floorW : EReal := Ideal.ofBits .f32 0xFF800000#32

/-- The scale word denotes a real number. -/
theorem scaleW_real : ∃ c : ℝ, scaleW = (c : EReal) := by
  have h1 : scaleW ≠ ⊤ := by simp [scaleW, Ideal.ofBits, Ideal.ieee, -EReal.coe_mul]
  have h2 : scaleW ≠ ⊥ := by simp [scaleW, Ideal.ofBits, Ideal.ieee, -EReal.coe_mul]
  exact ⟨scaleW.toReal, (EReal.coe_toReal h1 h2).symm⟩

/-- The floor word denotes −∞, so it lies below +∞. -/
theorem floorW_lt_top : floorW < ⊤ := by
  have : floorW = ⊥ := by simp [floorW, Ideal.ofBits, Ideal.ieee]
  rw [this]; exact bot_lt_top

/-- Score of key row `k` against the query row. -/
def score (qr : Fin 128 → EReal) (kv : Fin 2048 → Fin 128 → EReal) (k : Fin 2048) : EReal :=
  (∑ e : Fin 128, qr e * kv k e) * scaleW

/-- The maximum of a row of scores, folded from the floor. -/
def rowMax (s : Fin 2048 → EReal) : EReal := (Finset.univ : Finset (Fin 2048)).fold max floorW s

/-- The unnormalized softmax weight of key `k`. -/
def weight (s : Fin 2048 → EReal) (k : Fin 2048) : EReal := Ideal.exp (s k - rowMax s)

/-- Normalize LAST: the weighted, masked sum of the value column, divided by the row sum of the weights. -/
def attnLate (qr : Fin 128 → EReal) (kv : Fin 2048 → Fin 128 → EReal) (mr : Fin 2048 → EReal) (d : Fin 128) : EReal :=
  Ideal.div (∑ k : Fin 2048, (weight (score qr kv) k * mr k) * kv k d) (∑ k : Fin 2048, weight (score qr kv) k)

/-- Normalize FIRST: each weight divided by the row sum, then masked, then summed against the value column. -/
def attnEarly (qr : Fin 128 → EReal) (kv : Fin 2048 → Fin 128 → EReal) (mr : Fin 2048 → EReal) (d : Fin 128) : EReal :=
  ∑ k : Fin 2048, (Ideal.div (weight (score qr kv) k) (∑ k' : Fin 2048, weight (score qr kv) k') * mr k) * kv k d

/-- A finite sum of reals, read in the extended reals, is the sum of their images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A non-negative real factor distributes over a finite sum of extended reals, whatever they are. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- With real query and key rows every score is real. -/
theorem score_real (qr : Fin 128 → EReal) (kv : Fin 2048 → Fin 128 → EReal)
    (hq : ∀ e, ∃ r : ℝ, qr e = (r : EReal)) (hk : ∀ k e, ∃ r : ℝ, kv k e = (r : EReal)) (k : Fin 2048) :
    ∃ r : ℝ, score qr kv k = (r : EReal) := by
  choose a ha using hq
  choose b hb using hk
  obtain ⟨c, hc⟩ := scaleW_real
  refine ⟨(∑ e : Fin 128, a e * b k e) * c, ?_⟩
  unfold score
  rw [hc, EReal.coe_mul, coe_sum]
  refine congrArg (· * (c : EReal)) (Finset.sum_congr rfl fun e _ => ?_)
  rw [ha e, hb k e, EReal.coe_mul]

/-- With real scores the row sum of the weights is a positive real. -/
theorem sum_weight_pos (s : Fin 2048 → EReal) (hs : ∀ k, ∃ r : ℝ, s k = (r : EReal)) :
    ∃ l : ℝ, 0 < l ∧ ∑ k : Fin 2048, weight s k = (l : EReal) := by
  choose r hr using hs
  have hlt : rowMax s < ⊤ :=
    (Finset.fold_max_lt _).mpr ⟨floorW_lt_top, fun k _ => by rw [hr k]; exact EReal.coe_lt_top _⟩
  have hgt : ⊥ < rowMax s :=
    (Finset.lt_fold_max _).mpr (Or.inr ⟨(0 : Fin 2048), Finset.mem_univ _, by rw [hr 0]; exact EReal.bot_lt_coe _⟩)
  obtain ⟨mx, hmx⟩ : ∃ mx : ℝ, rowMax s = (mx : EReal) := by
    lift rowMax s to ℝ using ⟨hlt.ne, hgt.ne'⟩ with mx h
    exact ⟨mx, rfl⟩
  refine ⟨∑ k : Fin 2048, Real.exp (r k - mx), Finset.sum_pos (fun k _ => Real.exp_pos _) ⟨0, Finset.mem_univ _⟩, ?_⟩
  rw [coe_sum]
  refine Finset.sum_congr rfl fun k _ => ?_
  unfold weight
  rw [hmx, hr k, ← EReal.coe_sub, Ideal.exp_coe]

/-- THE LAW: on real query and key rows, normalizing last and normalizing first give the same extended real. -/
theorem attnLate_eq_attnEarly (qr : Fin 128 → EReal) (kv : Fin 2048 → Fin 128 → EReal) (mr : Fin 2048 → EReal) (d : Fin 128)
    (hq : ∀ e, ∃ r : ℝ, qr e = (r : EReal)) (hk : ∀ k e, ∃ r : ℝ, kv k e = (r : EReal)) :
    attnLate qr kv mr d = attnEarly qr kv mr d := by
  obtain ⟨l, hl, hsum⟩ := sum_weight_pos (score qr kv) (score_real qr kv hq hk)
  unfold attnLate attnEarly
  rw [hsum, Ideal.div_coe hl.ne', sum_mul_coe _ _ (by positivity : (0 : ℝ) ≤ 1 / l)]
  refine Finset.sum_congr rfl fun k _ => ?_
  rw [Ideal.div_coe hl.ne']
  ac_rfl

end Cert.Attn

end
-- ==== Proof.AttnSpec.lean ====
/- The attention result as ONE function of the three argument arrays, index by index: element (b, h, q, d) is the
   row-wise attention value of query row (b, h, q, ·) of x1, the keys and values (b, h, ·, ·) of x2 and mask row
   (b, h, q, ·). Two arrangements, as in the row algebra: normalize last, normalize first. -/
import proofs.«170887_j39676907885118_2_alg».proof.Proof.AttnAlgebra
import Idealize.ShloMosaic.Lib.ValueIdx

noncomputable section

namespace Cert.Attn

open Idealize.ShloMosaic Idealize.ShloMosaic.ValueIdx

/-- Query row (b, h, q) of the first argument. -/
abbrev qrow (a0 : (⟨4, ![2, 16, 2048, 128]⟩ : Shape).Idx → EReal) (b : Fin 2) (h : Fin 16) (q : Fin 2048) : Fin 128 → EReal :=
  fun e => a0 (ix4 b h q e)
/-- The key/value rows of head (b, h) of the second argument. -/
abbrev kvrows (a1 : (⟨4, ![2, 16, 2048, 128]⟩ : Shape).Idx → EReal) (b : Fin 2) (h : Fin 16) : Fin 2048 → Fin 128 → EReal :=
  fun k e => a1 (ix4 b h k e)
/-- Mask row (b, h, q) of the third argument. -/
abbrev mrow (a2 : (⟨4, ![2, 16, 2048, 2048]⟩ : Shape).Idx → EReal) (b : Fin 2) (h : Fin 16) (q : Fin 2048) : Fin 2048 → EReal :=
  fun k => a2 (ix4 b h q k)

/-- The whole result, normalizing last. -/
def attnArr (a0 a1 : (⟨4, ![2, 16, 2048, 128]⟩ : Shape).Idx → EReal) (a2 : (⟨4, ![2, 16, 2048, 2048]⟩ : Shape).Idx → EReal) :
    (⟨4, ![2, 16, 2048, 128]⟩ : Shape).Idx → EReal :=
  fun i => attnLate (qrow a0 (i 0) (i 1) (i 2)) (kvrows a1 (i 0) (i 1)) (mrow a2 (i 0) (i 1) (i 2)) (i 3)

theorem attnArr_apply (a0 a1 : (⟨4, ![2, 16, 2048, 128]⟩ : Shape).Idx → EReal) (a2 : (⟨4, ![2, 16, 2048, 2048]⟩ : Shape).Idx → EReal)
    (b : Fin 2) (h : Fin 16) (q : Fin 2048) (d : Fin 128) :
    attnArr a0 a1 a2 (ix4 b h q d) = attnLate (qrow a0 b h q) (kvrows a1 b h) (mrow a2 b h q) d := rfl

/-- The value at an index `i` from rows that are the arrays' rows at `i`'s batch, head and query coordinates. -/
theorem attnArr_of_rows (a0 a1 : (⟨4, ![2, 16, 2048, 128]⟩ : Shape).Idx → EReal) (a2 : (⟨4, ![2, 16, 2048, 2048]⟩ : Shape).Idx → EReal)
    (i : (⟨4, ![2, 16, 2048, 128]⟩ : Shape).Idx) (qr : Fin 128 → EReal) (kv : Fin 2048 → Fin 128 → EReal) (mr : Fin 2048 → EReal)
    (d : Fin 128) (hq : ∀ e, qr e = a0 (ix4 (i 0) (i 1) (i 2) e)) (hk : ∀ k e, kv k e = a1 (ix4 (i 0) (i 1) k e))
    (hm : ∀ k, mr k = a2 (ix4 (i 0) (i 1) (i 2) k)) (hd : (i 3).val = d.val) :
    attnLate qr kv mr d = attnArr a0 a1 a2 i := by
  have e1 : qr = qrow a0 (i 0) (i 1) (i 2) := funext hq
  have e2 : kv = kvrows a1 (i 0) (i 1) := funext fun k => funext fun e => hk k e
  have e3 : mr = mrow a2 (i 0) (i 1) (i 2) := funext hm
  have e4 : d = i 3 := Fin.ext hd.symm
  rw [e1, e2, e3, e4]
  rfl

end Cert.Attn

end
-- ==== Proof.LibLayout.lean ====
/- Layout operations of "keepdims" column vectors and doubly unit-led blocks, read at an index built from explicit
   coordinates. Each lemma says which element of the operand an element of the result is. -/
import Idealize.ShloMosaic.Lib.Pipeline.Value
import Idealize.ShloMosaic.Lib.ValueIdx

noncomputable section

namespace Cert.LibLayout

open Idealize.ShloMosaic Idealize.ShloMosaic.ValueIdx

variable {α : Type}

/-- A [1, 1, a, b] block viewed as [a, b]: element (p, q) is element (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] value stored as a [1, 1, a, b] block: element (0, 0, p, q) is element (p, q). -/
theorem shapeCast_ab_11ab_apply {a b : ℕ} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_four, Shape.rowMajor_val_two]
    show p.val * b + q.val = ((0 * 1 + 0) * a + p.val) * b + q.val
    simp only [Nat.zero_mul, Nat.zero_add])

/-- A vector [a] viewed as a column [a, 1]: element (p, 0) is element p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    simp only [Nat.mul_one, Nat.add_zero])

/-- A column [a, 1] broadcast along its rows to [a, b]: element (p, q) is element (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) :=
  broadcastTo_apply x h _ _ (fun c => by
    match c with
    | ⟨0, _⟩ =>
      show p.val = if a = 1 then 0 else p.val
      by_cases ha : a = 1
      · rw [if_pos ha]; have := p.isLt; omega
      · rw [if_neg ha]
    | ⟨1, _⟩ =>
      show 0 = if (1 : ℕ) = 1 then 0 else q.val
      rw [if_pos rfl])

end Cert.LibLayout

end
-- ==== Proof.KernelPoint.lean ====
/- What one grid point of the attention kernel stores, element by element.
   The body's result at row q, column d of its [512, 128] output block is the "normalize last" attention value of
   query row q of the x1 block against the whole x2 block (keys and values) and row q of the mask block:
   scores (q · Kᵀ) · c, their row maximum, exp of the difference, the row sum L, and (∑ₖ (wₖ · maskₖ) · V k d) / L.
   Format changes to bf16 are the identity on the extended reals; each matrix product is a plain finite sum. -/
import proofs.«170887_j39676907885118_2_alg».proof.Proof.Gen.KernelIdeal.Skeleton
import proofs.«170887_j39676907885118_2_alg».proof.Proof.AttnAlgebra
import proofs.«170887_j39676907885118_2_alg».proof.Proof.LibLayout
import Idealize.ShloMosaic.Lib.Pipeline.Value
import Idealize.ShloMosaic.Lib.ValueIdx
import Idealize.ShloMosaic.PureOps.Ideal.Laws

noncomputable section

open scoped BigOperators

namespace Cert.KernelIdeal.Point

open Cert.KernelIdeal Cert.KernelIdeal.Gen Idealize.ShloMosaic Idealize.ShloMosaic.ValueIdx Cert.Attn Cert.LibLayout

/-! ## The body's value in named pieces -/

/-- The key/value block as the matrix unit reads it. -/
def kmat (x1 : Vec Ideal S1x1x2048x128 .f32) : FVec Ideal S2048x128 .bf16 :=
  truncf .bf16 (shapeCast S2048x128 x1 shapeCasts_S1x1x2048x128_S2048x128) bitsLt_bf16_f32

/-- The scaled scores of the query block against the key block. -/
def scores (x0 : Vec Ideal S1x1x512x128 .f32) (x1 : Vec Ideal S1x1x2048x128 .f32) : FVec Ideal S512x2048 .f32 :=
  mulf (matmul dot_S512x128_S2048x128_S512x2048_1_1_0_0_n_n none
      (truncf .bf16 (shapeCast S512x128 x0 shapeCasts_S1x1x512x128_S512x128) bitsLt_bf16_f32) (kmat x1)
      (constant S512x2048 .f32 0x00000000#32))
    (broadcast S512x2048 (FloatOps.ofBits .f32 0x3E55DCAE#32))

/-- Each row's maximum score, repeated along the row. -/
def rowMaxB (s : FVec Ideal S512x2048 .f32) : FVec Ideal S512x2048 .f32 :=
  broadcastTo S512x2048 (shapeCast S512x1
    (multiReduction .maximumf [1] S512 s 0xFF800000#32 reduces_S512x2048_S512 (.inl rfl) rfl) shapeCasts_S512_S512x1)
    broadcasts_S512x1_S512x2048

/-- The unnormalized softmax weights. -/
def weights (s : FVec Ideal S512x2048 .f32) : FVec Ideal S512x2048 .f32 := exp (subf s (rowMaxB s))

/-- Each row's sum of weights, repeated along the output row. -/
def rowSumB (p : FVec Ideal S512x2048 .f32) : FVec Ideal S512x128 .f32 :=
  broadcastTo S512x128 (shapeCast S512x1
    (multiReduction .add [1] S512 p 0x00000000#32 reduces_S512x2048_S512 (.inl rfl) rfl) shapeCasts_S512_S512x1)
    broadcasts_S512x1_S512x128

/-- The masked weights times the value block. -/
def weighted (p : FVec Ideal S512x2048 .f32) (x1 : Vec Ideal S1x1x2048x128 .f32) (x2 : Vec Ideal S1x1x512x2048 .f32) :
    FVec Ideal S512x128 .f32 :=
  matmul dot_S512x2048_S2048x128_S512x128_1_0_0_1_n_n none
    (mulf (truncf .bf16 p bitsLt_bf16_f32)
      (truncf .bf16 (shapeCast S512x2048 x2 shapeCasts_S1x1x512x2048_S512x2048) bitsLt_bf16_f32))
    (kmat x1) (constant S512x128 .f32 0x00000000#32)

/-- The body's stored value is these pieces composed. -/
theorem pay_eq (x0 : Vec Ideal S1x1x512x128 .f32) (x1 : Vec Ideal S1x1x2048x128 .f32) (x2 : Vec Ideal S1x1x512x2048 .f32) :
    k0_pay1 (F := Ideal) x0 x1 x2
      = shapeCast S1x1x512x128 (divf (weighted (weights (scores x0 x1)) x1 x2) (rowSumB (weights (scores x0 x1))))
          shapeCasts_S512x128_S1x1x512x128 := rfl

/-! ## Each piece at an index -/

/-- Row k, column e of the key/value matrix is element (0, 0, k, e) of the block. -/
theorem kmat_apply (x1 : Vec Ideal S1x1x2048x128 .f32) (k : Fin 2048) (e : Fin 128) :
    kmat x1 (ix2 k e) = x1 (ix4 (0 : Fin 1) (0 : Fin 1) k e) :=
  shapeCast_11ab_ab_apply x1 shapeCasts_S1x1x2048x128_S2048x128 k e

/-- Operand coordinates of the first matrix product: the kept axis of each operand follows the output's row / column. -/
theorem qk_lhs0 (j : S512x2048.Idx) (c : dot_S512x128_S2048x128_S512x2048_1_1_0_0_n_n.contr.Idx) : (dot_S512x128_S2048x128_S512x2048_1_1_0_0_n_n.lhsIdx j c 0).val = (j 0).val := by
  unfold DotDims.lhsIdx
  rw [dif_neg (show ¬(0 : Fin S512x128.rank) ∈ dot_S512x128_S2048x128_S512x2048_1_1_0_0_n_n.lhsBatch by decide),
    dif_pos (show (0 : Fin S512x128.rank) ∈ dot_S512x128_S2048x128_S512x2048_1_1_0_0_n_n.lhsNonContracting by decide)]
  rfl
theorem qk_rhs0 (j : S512x2048.Idx) (c : dot_S512x128_S2048x128_S512x2048_1_1_0_0_n_n.contr.Idx) : (dot_S512x128_S2048x128_S512x2048_1_1_0_0_n_n.rhsIdx j c 0).val = (j 1).val := by
  unfold DotDims.rhsIdx
  rw [dif_neg (show ¬(0 : Fin S2048x128.rank) ∈ dot_S512x128_S2048x128_S512x2048_1_1_0_0_n_n.rhsBatch by decide),
    dif_pos (show (0 : Fin S2048x128.rank) ∈ dot_S512x128_S2048x128_S512x2048_1_1_0_0_n_n.rhsNonContracting by decide)]
  rfl

/-- The first matrix product contracts the feature axis of both operands. -/
theorem qk_apply (l : FVec Ideal S512x128 .bf16) (r : FVec Ideal S2048x128 .bf16) (q : Fin 512) (k : Fin 2048) :
    matmul dot_S512x128_S2048x128_S512x2048_1_1_0_0_n_n none l r (constant S512x2048 .f32 0x00000000#32) (ix2 q k)
      = ∑ e : Fin 128, l (ix2 q e) * r (ix2 k e) := by
  simp only [matmul]
  rw [Ideal.matmul_constant_zero_apply, ← Equiv.sum_comp (contrEquiv1 dot_S512x128_S2048x128_S512x2048_1_1_0_0_n_n 128 rfl rfl).symm]
  refine Finset.sum_congr rfl fun e _ => ?_
  have he := contrEquiv1_symm_val dot_S512x128_S2048x128_S512x2048_1_1_0_0_n_n 128 rfl rfl e
  have el : dot_S512x128_S2048x128_S512x2048_1_1_0_0_n_n.lhsIdx (ix2 q k) ((contrEquiv1 dot_S512x128_S2048x128_S512x2048_1_1_0_0_n_n 128 rfl rfl).symm e) = ix2 q e :=
    funext fun a => Fin.ext (by
      match a with
      | ⟨0, _⟩ => exact qk_lhs0 _ _
      | ⟨1, _⟩ => exact (dot_S512x128_S2048x128_S512x2048_1_1_0_0_n_n.lhsIdx_val_of_single rfl _ _).trans he)
  have er : dot_S512x128_S2048x128_S512x2048_1_1_0_0_n_n.rhsIdx (ix2 q k) ((contrEquiv1 dot_S512x128_S2048x128_S512x2048_1_1_0_0_n_n 128 rfl rfl).symm e) = ix2 k e :=
    funext fun a => Fin.ext (by
      match a with
      | ⟨0, _⟩ => exact qk_rhs0 _ _
      | ⟨1, _⟩ => exact (dot_S512x128_S2048x128_S512x2048_1_1_0_0_n_n.rhsIdx_val_of_single rfl _ _).trans he)
  rw [el, er]

/-- Operand coordinates of the second matrix product. -/
theorem pv_lhs0 (j : S512x128.Idx) (c : dot_S512x2048_S2048x128_S512x128_1_0_0_1_n_n.contr.Idx) : (dot_S512x2048_S2048x128_S512x128_1_0_0_1_n_n.lhsIdx j c 0).val = (j 0).val := by
  unfold DotDims.lhsIdx
  rw [dif_neg (show ¬(0 : Fin S512x2048.rank) ∈ dot_S512x2048_S2048x128_S512x128_1_0_0_1_n_n.lhsBatch by decide),
    dif_pos (show (0 : Fin S512x2048.rank) ∈ dot_S512x2048_S2048x128_S512x128_1_0_0_1_n_n.lhsNonContracting by decide)]
  rfl
theorem pv_rhs1 (j : S512x128.Idx) (c : dot_S512x2048_S2048x128_S512x128_1_0_0_1_n_n.contr.Idx) : (dot_S512x2048_S2048x128_S512x128_1_0_0_1_n_n.rhsIdx j c 1).val = (j 1).val := by
  unfold DotDims.rhsIdx
  rw [dif_neg (show ¬(1 : Fin S2048x128.rank) ∈ dot_S512x2048_S2048x128_S512x128_1_0_0_1_n_n.rhsBatch by decide),
    dif_pos (show (1 : Fin S2048x128.rank) ∈ dot_S512x2048_S2048x128_S512x128_1_0_0_1_n_n.rhsNonContracting by decide)]
  rfl

/-- The second matrix product contracts the key axis: the weights' columns against the value block's rows. -/
theorem pv_apply (l : FVec Ideal S512x2048 .bf16) (r : FVec Ideal S2048x128 .bf16) (q : Fin 512) (d : Fin 128) :
    matmul dot_S512x2048_S2048x128_S512x128_1_0_0_1_n_n none l r (constant S512x128 .f32 0x00000000#32) (ix2 q d)
      = ∑ k : Fin 2048, l (ix2 q k) * r (ix2 k d) := by
  simp only [matmul]
  rw [Ideal.matmul_constant_zero_apply, ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 q d) ((contrEquiv1 dot_S512x2048_S2048x128_S512x128_1_0_0_1_n_n 2048 rfl rfl).symm k) = ix2 q k :=
    funext fun a => Fin.ext (by
      match a with
      | ⟨0, _⟩ => exact pv_lhs0 _ _
      | ⟨1, _⟩ => exact (dot_S512x2048_S2048x128_S512x128_1_0_0_1_n_n.lhsIdx_val_of_single rfl _ _).trans hk)
  have er : dot_S512x2048_S2048x128_S512x128_1_0_0_1_n_n.rhsIdx (ix2 q d) ((contrEquiv1 dot_S512x2048_S2048x128_S512x128_1_0_0_1_n_n 2048 rfl rfl).symm k) = ix2 k d :=
    funext fun a => Fin.ext (by
      match a with
      | ⟨0, _⟩ => exact (dot_S512x2048_S2048x128_S512x128_1_0_0_1_n_n.rhsIdx_val_of_single rfl _ _).trans hk
      | ⟨1, _⟩ => exact pv_rhs1 _ _)
  rw [el, er]

/-- A score is the scaled inner product of query row q and key row k. -/
theorem scores_apply (x0 : Vec Ideal S1x1x512x128 .f32) (x1 : Vec Ideal S1x1x2048x128 .f32) (q : Fin 512) (k : Fin 2048) :
    scores x0 x1 (ix2 q k)
      = score (fun e => x0 (ix4 (0 : Fin 1) (0 : Fin 1) q e)) (fun k e => x1 (ix4 (0 : Fin 1) (0 : Fin 1) k e)) k := by
  unfold scores score
  show matmul dot_S512x128_S2048x128_S512x2048_1_1_0_0_n_n none _ (kmat x1) (constant S512x2048 .f32 0x00000000#32) (ix2 q k)
      * Ideal.ofBits .f32 0x3E55DCAE#32 = _
  rw [qk_apply]
  refine congrArg (· * scaleW) (Finset.sum_congr rfl fun e _ => ?_)
  rw [kmat_apply]
  exact congrArg (· * x1 (ix4 (0 : Fin 1) (0 : Fin 1) k e)) (shapeCast_11ab_ab_apply x0 shapeCasts_S1x1x512x128_S512x128 q e)

/-- The lane maximum of row q, from the floor. -/
theorem rowMaxB_apply (s : FVec Ideal S512x2048 .f32) (q : Fin 512) (k : Fin 2048) :
    rowMaxB s (ix2 q k) = rowMax (fun k' => s (ix2 q k')) := by
  unfold rowMaxB rowMax
  refine (broadcastTo_a1_ab_apply _ broadcasts_S512x1_S512x2048 q k).trans ?_
  refine (shapeCast_a_a1_apply _ shapeCasts_S512_S512x1 q).trans ?_
  refine (Ideal.multiReduction_maximumf_single s 0xFF800000#32 reduces_S512x2048_S512 _ _ (ix1 q)).trans ?_
  show (Finset.univ : Finset (Fin 2048)).fold max floorW (s ∘ reduces_S512x2048_S512.lift (ix1 q)) = _
  refine congrArg ((Finset.univ : Finset (Fin 2048)).fold max floorW) (funext fun k' => congrArg s ?_)
  funext a; apply Fin.ext
  match a with
  | ⟨0, _⟩ => rfl
  | ⟨1, _⟩ => rfl

/-- A weight is exp of the score less its row's maximum. -/
theorem weights_apply (s : FVec Ideal S512x2048 .f32) (q : Fin 512) (k : Fin 2048) :
    weights s (ix2 q k) = weight (fun k' => s (ix2 q k')) k := by
  unfold weights weight
  show Ideal.exp (s (ix2 q k) - rowMaxB s (ix2 q k)) = _
  rw [rowMaxB_apply]

/-- The lane sum of row q. -/
theorem rowSumB_apply (p : FVec Ideal S512x2048 .f32) (q : Fin 512) (d : Fin 128) :
    rowSumB p (ix2 q d) = ∑ k : Fin 2048, p (ix2 q k) := by
  unfold rowSumB
  refine (broadcastTo_a1_ab_apply _ broadcasts_S512x1_S512x128 q d).trans ?_
  refine (shapeCast_a_a1_apply _ shapeCasts_S512_S512x1 q).trans ?_
  refine (Ideal.multiReduction_add_single p 0x00000000#32 reduces_S512x2048_S512 _ _ (ix1 q)).trans ?_
  show ∑ k : Fin 2048, p (reduces_S512x2048_S512.lift (ix1 q) k) = _
  refine Finset.sum_congr rfl fun k _ => congrArg p ?_
  funext a; apply Fin.ext
  match a with
  | ⟨0, _⟩ => rfl
  | ⟨1, _⟩ => rfl

/-- The masked, weighted sum of value column d. -/
theorem weighted_apply (p : FVec Ideal S512x2048 .f32) (x1 : Vec Ideal S1x1x2048x128 .f32) (x2 : Vec Ideal S1x1x512x2048 .f32)
    (q : Fin 512) (d : Fin 128) :
    weighted p x1 x2 (ix2 q d)
      = ∑ k : Fin 2048, (p (ix2 q k) * x2 (ix4 (0 : Fin 1) (0 : Fin 1) q k)) * x1 (ix4 (0 : Fin 1) (0 : Fin 1) k d) := by
  unfold weighted
  rw [pv_apply]
  refine Finset.sum_congr rfl fun k _ => ?_
  rw [kmat_apply]
  refine congrArg (· * x1 (ix4 (0 : Fin 1) (0 : Fin 1) k d)) ?_
  show p (ix2 q k) * shapeCast S512x2048 x2 shapeCasts_S1x1x512x2048_S512x2048 (ix2 q k) = _
  rw [shapeCast_11ab_ab_apply x2 shapeCasts_S1x1x512x2048_S512x2048 q k]

/-! ## The stored block at an index -/

/-- WHAT THE BODY STORES at (0, 0, q, d): the normalize-last attention value of query row q, the block's keys and values, and
    mask row q, at value column d. -/
theorem pay_apply (x0 : Vec Ideal S1x1x512x128 .f32) (x1 : Vec Ideal S1x1x2048x128 .f32) (x2 : Vec Ideal S1x1x512x2048 .f32)
    (q : Fin 512) (d : Fin 128) :
    k0_pay1 (F := Ideal) x0 x1 x2 (ix4 (0 : Fin 1) (0 : Fin 1) q d)
      = attnLate (fun e => x0 (ix4 (0 : Fin 1) (0 : Fin 1) q e)) (fun k e => x1 (ix4 (0 : Fin 1) (0 : Fin 1) k e))
          (fun k => x2 (ix4 (0 : Fin 1) (0 : Fin 1) q k)) d := by
  rw [pay_eq]
  refine (shapeCast_ab_11ab_apply _ shapeCasts_S512x128_S1x1x512x128 q d).trans ?_
  show Ideal.div (weighted (weights (scores x0 x1)) x1 x2 (ix2 q d)) (rowSumB (weights (scores x0 x1)) (ix2 q d)) = _
  have hs : (fun k' => scores x0 x1 (ix2 q k'))
      = score (fun e => x0 (ix4 (0 : Fin 1) (0 : Fin 1) q e)) (fun k e => x1 (ix4 (0 : Fin 1) (0 : Fin 1) k e)) :=
    funext fun k' => scores_apply x0 x1 q k'
  rw [weighted_apply, rowSumB_apply]
  simp only [weights_apply, hs]
  rfl

end Cert.KernelIdeal.Point

end
-- ==== Proof.KernelArray.lean ====
/- From blocks to the array. Grid point (b, h, i) stages query rows 512·i … 512·i + 511 of head (b, h), the head's whole
   key/value block and the matching mask rows, and writes back output rows 512·i … 512·i + 511 of head (b, h). What it
   writes is the attention value of those rows, so block t of the result is block t of ONE whole-array function; the
   128 blocks tile the result array, hence the array ends holding that function. -/
import proofs.«170887_j39676907885118_2_alg».proof.Proof.Gen.KernelIdeal.Value
import proofs.«170887_j39676907885118_2_alg».proof.Proof.KernelPoint
import proofs.«170887_j39676907885118_2_alg».proof.Proof.AttnSpec

noncomputable section

namespace Cert.KernelIdeal.ArrValue

open Cert.KernelIdeal Cert.KernelIdeal.Gen Cert.KernelIdeal.Value Cert.KernelIdeal.Point Cert.Attn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-- The printed index maps over the 128 grid points: the query and mask blocks move with the output block on the batch,
    head and row-tile axes; the key/value block moves with it on batch and head only and is the whole head; every
    block starts at column 0. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = win0_3.index t (2 : Fin 4) ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = win0_3.index t (2 : Fin 4) ∧ win0_2.index t (3 : Fin 4) = 0
    ∧ win0_3.index t (3 : Fin 4) = 0 :=
  (by decide +kernel : ∀ t : Fin grid0.N, _)

/-- Every (batch, head, row tile) is some grid point's output block. -/
theorem idx_onto : ∀ (q0 : Fin 2) (q1 : Fin 16) (q2 : Fin 4), ∃ t : Fin cfg0.N, win0_3.index t = ![q0.val, q1.val, q2.val, 0] :=
  (by decide +kernel : ∀ (q0 : Fin 2) (q1 : Fin 16) (q2 : Fin 4), ∃ t : Fin grid0.N, win0_3.index t = ![q0.val, q1.val, q2.val, 0])

/-- The whole-array function the result ends at, of the arrays as the region finds them. -/
abbrev result (c : Dev nD) : S2x16x2048x128.Idx → EReal :=
  attnArr (V m c main_arg0) (V m c main_arg1) (V m c main_arg2)

/-- WHAT POINT `t` WRITES BACK is block `t` of the whole-array attention function. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz]
  simp only [View.ld_unit_zero (S := S1x1x512x128) hz, View.ld_unit_zero (S := S1x1x2048x128) hz,
    View.ld_unit_zero (S := S1x1x512x2048) hz]
  obtain ⟨e00, e01, e02, e03, e10, e11, e12, e13, e20, e21, e22, e23, e33⟩ := idx_facts t
  funext j
  obtain ⟨u, v, q, d, rfl⟩ : ∃ (u v : Fin 1) (q : Fin 512) (d : Fin 128), j = ix4 u v q d :=
    ⟨j 0, j 1, j 2, j 3, eq_ix4 j⟩
  obtain rfl : u = 0 := Subsingleton.elim _ _
  obtain rfl : v = 0 := Subsingleton.elim _ _
  show k0_pay1 (F := Ideal) (iblk m c 0 t) (iblk m c 1 t) (iblk m c 2 t) (ix4 (0 : Fin 1) (0 : Fin 1) q d)
    = result m c (((cfg0.win 3).blk t).view.emb (ix4 (0 : Fin 1) (0 : Fin 1) q d))
  refine (pay_apply (iblk m c 0 t) (iblk m c 1 t) (iblk m c 2 t) q d).trans ?_
  refine attnArr_of_rows _ _ _ _ _ _ _ d (fun e => ?_) (fun k e => ?_) (fun k => ?_) ?_
  · show V m c main_arg0 (((cfg0.win 0).blk t).view.emb (ix4 (0 : Fin 1) (0 : Fin 1) q e)) = V m c main_arg0 _
    refine congrArg (V m c main_arg0) (funext fun a => Fin.ext ?_)
    match a with
    | ⟨0, _⟩ => show win0_0.index t (0 : Fin 4) * 1 + 1 * 0 = win0_3.index t (0 : Fin 4) * 1 + 1 * 0; omega
    | ⟨1, _⟩ => show win0_0.index t (1 : Fin 4) * 1 + 1 * 0 = win0_3.index t (1 : Fin 4) * 1 + 1 * 0; omega
    | ⟨2, _⟩ => show win0_0.index t (2 : Fin 4) * 512 + 1 * q.val = win0_3.index t (2 : Fin 4) * 512 + 1 * q.val; omega
    | ⟨3, _⟩ => show win0_0.index t (3 : Fin 4) * 128 + 1 * e.val = e.val; omega
  · show V m c main_arg1 (((cfg0.win 1).blk t).view.emb (ix4 (0 : Fin 1) (0 : Fin 1) k e)) = V m c main_arg1 _
    refine congrArg (V m c main_arg1) (funext fun a => Fin.ext ?_)
    match a with
    | ⟨0, _⟩ => show win0_1.index t (0 : Fin 4) * 1 + 1 * 0 = win0_3.index t (0 : Fin 4) * 1 + 1 * 0; omega
    | ⟨1, _⟩ => show win0_1.index t (1 : Fin 4) * 1 + 1 * 0 = win0_3.index t (1 : Fin 4) * 1 + 1 * 0; omega
    | ⟨2, _⟩ => show win0_1.index t (2 : Fin 4) * 2048 + 1 * k.val = k.val; omega
    | ⟨3, _⟩ => show win0_1.index t (3 : Fin 4) * 128 + 1 * e.val = e.val; omega
  · show V m c main_arg2 (((cfg0.win 2).blk t).view.emb (ix4 (0 : Fin 1) (0 : Fin 1) q k)) = V m c main_arg2 _
    refine congrArg (V m c main_arg2) (funext fun a => Fin.ext ?_)
    match a with
    | ⟨0, _⟩ => show win0_2.index t (0 : Fin 4) * 1 + 1 * 0 = win0_3.index t (0 : Fin 4) * 1 + 1 * 0; omega
    | ⟨1, _⟩ => show win0_2.index t (1 : Fin 4) * 1 + 1 * 0 = win0_3.index t (1 : Fin 4) * 1 + 1 * 0; omega
    | ⟨2, _⟩ => show win0_2.index t (2 : Fin 4) * 512 + 1 * q.val = win0_3.index t (2 : Fin 4) * 512 + 1 * q.val; omega
    | ⟨3, _⟩ => show win0_2.index t (3 : Fin 4) * 2048 + 1 * k.val = k.val; omega
  · show win0_3.index t (3 : Fin 4) * 128 + 1 * d.val = d.val
    omega

/-- An index of the result array is in point `t`'s block iff each coordinate is in the block's range on its axis. -/
theorem mem_blk (t : Fin cfg0.N) (i : S2x16x2048x128.Idx) :
    i ∈ ((cfg0.win 3).blk t).view.set ↔ ∀ a : Fin 4, win0_3.index t a * S1x1x512x128.size a ≤ (i a).val
      ∧ (i a).val < win0_3.index t a * S1x1x512x128.size a + S1x1x512x128.size a := by
  show i ∈ ((View.whole main_v0).slice (win0_3.rect t)).set ↔ _
  rw [View.set_slice_whole, Rect.mem_set_unit]
  exact Iff.rfl

/-- The output blocks tile the result array: row r of head (b, h) is in the block of row tile r / 512. -/
theorem cover (i : S2x16x2048x128.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 128 := (i 3).isLt
  obtain ⟨t, ht⟩ := idx_onto ⟨(i 0).val, hi0⟩ ⟨(i 1).val, hi1⟩ ⟨(i 2).val / 512, by omega⟩
  have q0 : win0_3.index t (0 : Fin 4) = (i 0).val := congrFun ht 0
  have q1 : win0_3.index t (1 : Fin 4) = (i 1).val := congrFun ht 1
  have q2 : win0_3.index t (2 : Fin 4) = (i 2).val / 512 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 128 ≤ (i 3).val ∧ (i 3).val < win0_3.index t (3 : Fin 4) * 128 + 128; omega

/-- THE RESULT ARRAY after the run is the whole-array attention function of the argument arrays. -/
theorem final (c : Dev nD) : (dats m 0 c).arrAt 3 cfg0.N
    = attnArr (m ((c : Thread nD τ).loc main_arg0)) (m ((c : Thread nD τ).loc main_arg1)) (m ((c : Thread nD τ).loc main_arg2)) :=
  (dats m 0 c).arrAt_eq_of_cover 3 (result m c) (fun t _ => flushed_eq m c t) cover

/-- The kernel's run, read: the result at the attention function of the arguments, the arguments unchanged. -/
theorem run : θ_run defs (onTc (τ := τ) (main (F := Ideal))) ⟨m, fun _ => 0, ρ⟩ fun r => ∀ c : Dev nD,
      r.2.mem ((c : Thread nD τ).loc main_v0)
        = attnArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrValue

end
-- ==== Proof.RefValue.lean ====
/- The reference program's result, read one operation at a time, is the normalize-first attention value at every index:
   its dot_general is the score sum, its max-reduce (joined once more with the floor it started from) the row maximum,
   its add-reduce the row sum starting from zero, and its second dot_general the sum over the key axis. -/
import proofs.«170887_j39676907885118_2_alg».proof.Proof.Gen.ReferenceIdeal.Read
import proofs.«170887_j39676907885118_2_alg».proof.Proof.AttnSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (x0 x1 : (⟨S2x16x2048x128, .f32⟩ : BufTy).Contents (Elt Ideal)) (x2 : (⟨S2x16x2048x2048, .f32⟩ : BufTy).Contents (Elt Ideal))

/-- The scaled scores. -/
theorem v2_apply (b : Fin 2) (h : Fin 16) (q k : Fin 2048) :
    val_main_v2 (F := Ideal) x0 x1 (ix4 b h q k) = score (qrow x0 b h q) (kvrows x1 b h) k := by
  rw [val_main_v2_apply, val_main_v0_apply, val_main_v1_apply, val_main_cst_apply]
  unfold score
  show (∑ e : Fin 128, x0 (lidx_main_v0 (ix4 b h q k) e) * x1 (ridx_main_v0 (ix4 b h q k) e)) * Ideal.ofBits .f32 0x3E55DCAE#32 = _
  refine congrArg (· * scaleW) (Finset.sum_congr rfl fun e _ => ?_)
  have el : lidx_main_v0 (ix4 b h q k) e = ix4 b h q e :=
    funext fun a => Fin.ext (by match a with | ⟨0, _⟩ => rfl | ⟨1, _⟩ => rfl | ⟨2, _⟩ => rfl | ⟨3, _⟩ => rfl)
  have er : ridx_main_v0 (ix4 b h q k) e = ix4 b h k e :=
    funext fun a => Fin.ext (by match a with | ⟨0, _⟩ => rfl | ⟨1, _⟩ => rfl | ⟨2, _⟩ => rfl | ⟨3, _⟩ => rfl)
  rw [el, er]

/-- The row maximum: the max-reduce folds from the floor, and joining the floor once more changes nothing. -/
theorem v5_apply (b : Fin 2) (h : Fin 16) (q : Fin 2048) :
    val_main_v5 (F := Ideal) x0 x1 (ix3 b h q) = rowMax (score (qrow x0 b h q) (kvrows x1 b h)) := by
  have hred : S2x16x2048x2048.Reduces [3] S2x16x2048 := by decide
  rw [val_main_v5_apply, val_main_v4_apply, val_main_cst_1_apply]
  have h3 : val_main_v3 (F := Ideal) x0 x1 (ix3 b h q) = rowMax (score (qrow x0 b h q) (kvrows x1 b h)) := by
    unfold val_main_v3
    refine (Host.reduce_eq_fold_single FloatOps.maximumf _ _ reducesTo_S2x16x2048x2048_S2x16x2048_d3 hred h_S_ (ix3 b h q)).trans ?_
    unfold rowMax
    show (Finset.univ : Finset (Fin 2048)).fold max floorW (val_main_v2 (F := Ideal) x0 x1 ∘ hred.lift (ix3 b h q)) = _
    refine congrArg ((Finset.univ : Finset (Fin 2048)).fold max floorW) (funext fun (k : Fin 2048) => ?_)
    have e : hred.lift (ix3 b h q) k = ix4 b h q k :=
      funext fun a => Fin.ext (by match a with | ⟨0, _⟩ => rfl | ⟨1, _⟩ => rfl | ⟨2, _⟩ => rfl | ⟨3, _⟩ => rfl)
    show val_main_v2 (F := Ideal) x0 x1 (hred.lift (ix3 b h q) k) = _
    rw [e, v2_apply]
  rw [h3]
  show max floorW (rowMax _) = _
  exact max_eq_right ((Finset.le_fold_max _).mpr (Or.inl le_rfl))

/-- The unnormalized weights. -/
theorem v9_apply (b : Fin 2) (h : Fin 16) (q k : Fin 2048) :
    val_main_v9 (F := Ideal) x0 x1 (ix4 b h q k) = weight (score (qrow x0 b h q) (kvrows x1 b h)) k := by
  rw [val_main_v9_apply, val_main_v8_apply, v2_apply, val_main_v7_apply, val_main_v6_apply]
  have e : idx_main_v6 (idx_main_v7 (ix4 b h q k)) = ix3 b h q :=
    funext fun a => Fin.ext (by match a with | ⟨0, _⟩ => rfl | ⟨1, _⟩ => rfl | ⟨2, _⟩ => rfl)
  rw [e, v5_apply]
  rfl

/-- The row sum of the weights (the add-reduce starts from zero). -/
theorem v12_apply (b : Fin 2) (h : Fin 16) (q k : Fin 2048) :
    val_main_v12 (F := Ideal) x0 x1 (ix4 b h q k) = ∑ k' : Fin 2048, weight (score (qrow x0 b h q) (kvrows x1 b h)) k' := by
  rw [val_main_v12_apply, val_main_v11_apply]
  have e : idx_main_v11 (idx_main_v12 (ix4 b h q k)) = ix3 b h q :=
    funext fun a => Fin.ext (by match a with | ⟨0, _⟩ => rfl | ⟨1, _⟩ => rfl | ⟨2, _⟩ => rfl)
  rw [e, val_main_v10_apply, val_main_cst_2_apply]
  show Ideal.ofBits .f32 0x00000000#32 + _ = _
  rw [Ideal.ofBits_zero_f32, zero_add]
  refine Finset.sum_congr rfl fun k' _ => ?_
  have e' : idx_main_v10 (ix3 b h q) k' = ix4 b h q k' :=
    funext fun a => Fin.ext (by match a with | ⟨0, _⟩ => rfl | ⟨1, _⟩ => rfl | ⟨2, _⟩ => rfl | ⟨3, _⟩ => rfl)
  rw [e', v9_apply]

/-- THE REFERENCE'S RESULT at (b, h, q, d): the normalize-first attention value. -/
theorem result_apply (b : Fin 2) (h : Fin 16) (q : Fin 2048) (d : Fin 128) :
    val_main_v15 (F := Ideal) x0 x1 x2 (ix4 b h q d) = attnEarly (qrow x0 b h q) (kvrows x1 b h) (mrow x2 b h q) d := by
  rw [val_main_v15_apply]
  unfold attnEarly
  refine Finset.sum_congr rfl fun k _ => ?_
  have el : lidx_main_v15 (ix4 b h q d) k = ix4 b h q k :=
    funext fun a => Fin.ext (by match a with | ⟨0, _⟩ => rfl | ⟨1, _⟩ => rfl | ⟨2, _⟩ => rfl | ⟨3, _⟩ => rfl)
  have er : ridx_main_v15 (ix4 b h q d) k = ix4 b h k d :=
    funext fun a => Fin.ext (by match a with | ⟨0, _⟩ => rfl | ⟨1, _⟩ => rfl | ⟨2, _⟩ => rfl | ⟨3, _⟩ => rfl)
  rw [el, er, val_main_v14_apply, val_main_v13_apply, v9_apply, v12_apply]
  rfl

end Cert.ReferenceIdeal.RefValue

end
-- ==== Proof.Finite.lean ====
/- Under the precondition every entry of the three argument arrays is a real number: the precondition's three
   "all |x| < +∞" tests, read back element by element. An extended real whose absolute value lies strictly below +∞ is
   neither infinity. -/
import proofs.«170887_j39676907885118_2_alg».proof.Pre_finite_inputs
import proofs.«170887_j39676907885118_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Cert.Pre_finite_inputs Cert.Pre_finite_inputs.Gen Idealize.ShloMosaic

instance : Subsingleton S_.Idx := ⟨fun a b => funext fun d => d.elim0⟩

/-- An extended real whose absolute value tests strictly below the word of +∞ is a real: at either infinity the
    absolute value max x (−x) is +∞, which is not below itself. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exfalso; unfold Ideal.cmp at h; simp at h
  | coe r => exact ⟨r, rfl⟩
  | top => exfalso; unfold Ideal.cmp at h; simp at h

/-- The precondition gives: every entry of every argument array is a real. -/
theorem all_real (a0 a1 : FVec Ideal S2x16x2048x128 .f32) (a2 : FVec Ideal S2x16x2048x2048 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, hc⟩ := IntOp.andi_eq_one.1 h0
  obtain ⟨ha, hb⟩ := IntOp.andi_eq_one.1 h01
  exact ⟨fun i => real_of_abs_lt (a0 i) (Host.reduce_andi_all _ _ _ _ ValueIdx.ix0 ha i),
    fun i => real_of_abs_lt (a1 i) (Host.reduce_andi_all _ _ _ _ ValueIdx.ix0 hb i),
    fun i => real_of_abs_lt (a2 i) (Host.reduce_andi_all _ _ _ _ ValueIdx.ix0 hc i)⟩

end Cert.Pre_finite_inputs.Finite

end
-- ==== Proof.lean ====
/- Fused attention with dropout — softmax (x1 · x2ᵀ · c) ⊙ mask · x2 over f32[2, 16, 2048, ·], one (batch, head, 512-row
   tile) per grid point — against the plain jnp composition.

   The mathematics. For one query row let s k = (∑ₑ q e · K k e) · c be the scaled scores, M their maximum, w k = exp (s k − M)
   the weights and L = ∑ₖ w k. The kernel computes (∑ₖ (w k · mask k) · V k d) / L (it divides once, after the second
   product); the reference computes ∑ₖ ((w k / L) · mask k) · V k d (softmax first). Both read the same scale word and
   start their maxima from the same −∞ word; the reference joins its maximum with −∞ once more, which changes nothing.
   Under the precondition x1 and x2 are real, so every score is real, M is real (a maximum of 2048 reals), every weight
   is a positive real and L is a positive real. Division by L is then multiplication by the non-negative real 1 / L, which
   distributes over any finite sum of extended reals; commutativity and associativity of the product do the rest. The
   mask's finiteness is never used.

   The modules: AttnAlgebra (the row algebra and the law), AttnSpec (the result as one function of the arrays), LibLayout
   (four layout lemmas), KernelPoint (what one grid point stores, element by element), KernelArray (the 128 blocks tile
   the result array), RefValue (the reference read operation by operation), Finite (the precondition read back). -/
import proofs.«170887_j39676907885118_2_alg».proof.Defs
import proofs.«170887_j39676907885118_2_alg».proof.Proof.Gen.Kernel
import proofs.«170887_j39676907885118_2_alg».proof.Proof.Gen.Kernel.Frame
import proofs.«170887_j39676907885118_2_alg».proof.Proof.Gen.KernelIdeal
import proofs.«170887_j39676907885118_2_alg».proof.Proof.Gen.KernelIdeal.Frame
import proofs.«170887_j39676907885118_2_alg».proof.Proof.Gen.KernelIdeal.Value
import proofs.«170887_j39676907885118_2_alg».proof.Proof.Gen.ReferenceIdeal
import proofs.«170887_j39676907885118_2_alg».proof.Proof.Gen.ReferenceIdeal.Run
import proofs.«170887_j39676907885118_2_alg».proof.Proof.Gen.ReferenceIdeal.Read
import proofs.«170887_j39676907885118_2_alg».proof.Proof.Gen.Pre_finite_inputs
import proofs.«170887_j39676907885118_2_alg».proof.Proof.AttnAlgebra
import proofs.«170887_j39676907885118_2_alg».proof.Proof.AttnSpec
import proofs.«170887_j39676907885118_2_alg».proof.Proof.KernelArray
import proofs.«170887_j39676907885118_2_alg».proof.Proof.RefValue
import proofs.«170887_j39676907885118_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Attn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the attention function of the (agreeing) argument arrays: the kernel in the
    normalize-last arrangement, the reference in the normalize-first one, equal at every index because the precondition
    makes the query and key rows real. -/
theorem algebraic : Cert.algebraic_KernelIdeal_ReferenceIdeal := by
  intro m ρ m' ρ' hpre hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v15_eq]
  obtain ⟨f0, f1, _⟩ := Cert.Pre_finite_inputs.Finite.all_real _ _ _ (hpre c)
  funext i
  obtain ⟨b, h, q, d, rfl⟩ : ∃ (b : Fin 2) (h : Fin 16) (q : Fin 2048) (d : Fin 128), i = ix4 b h q d :=
    ⟨i 0, i 1, i 2, i 3, eq_ix4 i⟩
  rw [Cert.ReferenceIdeal.RefValue.result_apply, attnArr_apply]
  exact (attnLate_eq_attnEarly _ _ _ d (fun e => f0 _) (fun k e => f1 _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
